-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) (main_arg1 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x8192 : Shape := ⟨2, ![256, 8192]⟩
abbrev S256x1 : Shape := ⟨2, ![256, 1]⟩

abbrev nBuf : Space → Nat
  | .hbm => 14
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S1x8192, .f32⟩
  | .local _ .vmem, ⟨5, _⟩ => ⟨S256x8192, .f32⟩
  | .local _ .vmem, ⟨6, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192_S_d0 : S8192.ReducesTo [0] S_
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S256x1_S256x8192 : S256x1.Broadcasts S256x8192
  broadcasts_S1x8192_S256x8192 : S1x8192.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S8192x8192.size a
  hwx0_3 : ∀ i : grid0.Coords, EltTy.bits .f32 = 32 ∨ (Rect.block (s := S8192x8192) S256x8192.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S8192 : S_.BroadcastsInDim S8192 (![] : Fin 0 → Fin S8192.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)

variable [Facts₀]

class Facts : Prop extends Facts₀ where

variable [Facts]
-- ==== Proof.ScaleLaw.lean ====
/-
  The mathematics of the certificate, over the extended reals, with no program in sight.

  Both programs take a square array `X` (8192 × 8192) and a vector of degrees `d` (8192 entries) and return, entry by
  entry, `log (max (X[i,j] · s · r[i] · r[j]) ε)`, where `r` is the vector of reciprocals `1 / d`, `s` is one scalar
  (the sum of the degrees divided by 5) and `ε` a clamp. They differ only in how the three factors are grouped around
  `X[i,j]`: the reference multiplies the whole array by `s` first, then by the row's reciprocal, then by the column's;
  the kernel is handed the row factor `r[i] · s` already multiplied out and then multiplies by the column's reciprocal.
  Multiplication of extended reals is commutative and associative (also at 0 and ±∞), so the two groupings are one
  number; nothing here needs the entries to be finite.
-/
import Idealize.ShloMosaic.PureOps.Ideal

noncomputable section

namespace Cert.ScaleSpec

open Idealize.ShloMosaic

/-- The square array's shape. -/
abbrev SMat : Shape := ⟨2, ![8192, 8192]⟩
/-- The degree vector's shape. -/
abbrev SVec : Shape := ⟨1, ![8192]⟩

/-- The row of an entry of the square array, as an index of the degree vector. -/
abbrev rowIx (i : SMat.Idx) : SVec.Idx := fun a => match a with
  | ⟨0, _⟩ => ⟨(i 0).val, (i 0).isLt⟩
/-- The column of an entry of the square array, as an index of the degree vector. -/
abbrev colIx (i : SMat.Idx) : SVec.Idx := fun a => match a with
  | ⟨0, _⟩ => ⟨(i 1).val, (i 1).isLt⟩

/-- THE RESULT, entry by entry, in the reference's grouping: the entry times the scalar `s`, times the reciprocal `r` of
    its row's degree, times the reciprocal of its column's degree, clamped below at `ε`, then the logarithm. -/
def G (X : SMat.Idx → EReal) (r : SVec.Idx → EReal) (s ε : EReal) : SMat.Idx → EReal :=
  fun i => Ideal.log (max (X i * s * r (rowIx i) * r (colIx i)) ε)

/-- The two groupings of the three factors around an entry `x`: the row factor `a · s` multiplied out first (the
    kernel's), or `x · s` first and then `a` (the reference's). Commutativity and associativity of the product of
    extended reals; no finiteness. -/
theorem regroup (x a b s : EReal) : x * (a * s) * b = x * s * a * b := by
  rw [mul_comm a s, ← mul_assoc]

/-- The kernel's grouping, entry by entry, is `G`. -/
theorem G_of_rowFactor (X : SMat.Idx → EReal) (r : SVec.Idx → EReal) (s ε : EReal) (i : SMat.Idx) :
    Ideal.log (max (X i * (r (rowIx i) * s) * r (colIx i)) ε) = G X r s ε i := by
  unfold G
  rw [regroup]

end Cert.ScaleSpec

end
-- ==== Proof.RefScale.lean ====
/-
  The reference's result array, read one entry at a time, is the specification `Cert.ScaleSpec.G`.

  The reference broadcasts the scalar `s` (sum of the degrees over 5) to the whole square, multiplies the argument by
  it, then broadcasts the reciprocal vector `r = 1 / d` down the columns (entry (i, j) reads `r[i]`) and multiplies,
  then across the rows (entry (i, j) reads `r[j]`) and multiplies, clamps below at the literal and takes the
  logarithm. Each broadcast read at an index is the operand at the row or the column of that index, so the entry is
  `log (max (X[i,j] · s · r[i] · r[j]) ε)`. The reciprocal vector and the scalar are kept as the reference's own stages:
  the sum of the degrees and the two quotients are never opened.
-/
import proofs.«128968_j56556129354266_2_alg».proof.Proof.Gen.ReferenceIdeal.Read
import proofs.«128968_j56556129354266_2_alg».proof.Proof.ScaleLaw

noncomputable section

namespace Cert.RefScale

open Cert.ReferenceIdeal Cert.ReferenceIdeal.Read Idealize.ShloMosaic Cert.ScaleSpec

/-- The reciprocal vector `1 / d` as the reference computes it (its quotient stage). -/
abbrev recip (d : (⟨S8192, .f32⟩ : BufTy).Contents (Elt Ideal)) : SVec.Idx → EReal :=
  val_main_v2 (F := Ideal) d

/-- The scalar `(Σ d) / 5` as the reference computes it (its scalar quotient stage, at the one index of a scalar). -/
abbrev scale (d : (⟨S8192, .f32⟩ : BufTy).Contents (Elt Ideal)) : EReal :=
  val_main_v3 (F := Ideal) d (fun a => a.elim0)

/-- The clamp: the literal both programs carry, as its exact binary value. -/
abbrev clamp : EReal := Ideal.ofBits .f32 0x3A83126F#32

/-- THE REFERENCE IS `G`: its last stage, entry by entry, is the specification at the argument array, the
    reference's own reciprocal vector and scalar, and the clamp literal. -/
theorem result_eq (X : (⟨S8192x8192, .f32⟩ : BufTy).Contents (Elt Ideal)) (d : (⟨S8192, .f32⟩ : BufTy).Contents (Elt Ideal)) :
    val_main_v14 (F := Ideal) X d = G X (recip d) (scale d) clamp := by
  funext i
  -- the column broadcast reads the row's reciprocal, the row broadcast the column's
  have erow : idx_main_v6 (idx_main_v7 i) = rowIx i := funext fun a => match a with | ⟨0, _⟩ => rfl
  have ecol : idx_main_v9 (idx_main_v10 i) = colIx i := funext fun a => match a with | ⟨0, _⟩ => rfl
  rw [val_main_v14_apply, val_main_v13_apply, val_main_v11_apply, val_main_v8_apply, val_main_v5_apply,
    val_main_v4_apply, val_main_v7_apply, val_main_v6_apply, val_main_v10_apply, val_main_v9_apply,
    val_main_v12_apply, val_main_cst_2_apply, erow, ecol]
  rfl

end Cert.RefScale

end
-- ==== Proof.KernelScale.lean ====
/-
  The kernel's run, read as one function of its arguments.

  Before the call the host computes, from the degree vector `d`, the reciprocal vector `r = 1 / d` and the scalar
  `s = (Σ d) / 5`, and lays out two small operands: the column of row factors, `r · s` as an 8192 × 1 array, and the
  row of column factors, `r` as a 1 × 8192 array. The call sweeps the square array in 32 strips of 256 full rows.
  At strip `t` the body loads the strip of `X`, the matching 256 × 1 piece of the column of row factors and the whole
  row of column factors, and stores, entry by entry, `log (max (x · rowfactor · colfactor) ε)`.

  So entry `(p, q)` of strip `t` is the specification's entry `(256 t + p, q)`, with the three factors grouped the
  kernel's way (Proof/ScaleLaw.lean joins the groupings); the strips are pairwise disjoint and together are the
  whole array, hence the output array after the run is the specification. The reciprocal vector and the scalar are
  carried as the host's own terms and never opened.
-/
import proofs.«128968_j56556129354266_2_alg».proof.Proof.Gen.KernelIdeal.Value
import proofs.«128968_j56556129354266_2_alg».proof.Proof.ScaleLaw
import Idealize.ShloMosaic.Lib.Pipeline.Value
import Idealize.ShloMosaic.Lib.StableHlo.Run

noncomputable section

namespace Cert.KernelScale

open Cert.KernelIdeal Cert.KernelIdeal.Gen Cert.KernelIdeal.Value Idealize.ShloMosaic Idealize.ShloMosaic.TcCoe Idealize.SL.Sem
open Idealize.ShloMosaic.StableHlo
open Idealize.ShloMosaic.Pipeline (Dat)
open Cert.ScaleSpec

variable (m : (ℓ : Loc nD τ sig) → Buf (Elt Ideal) ℓ) (ρ : Dev nD → PrngReg)

/-! ## What the program computes before the call -/

/-- The reciprocal vector `1 / d`, as the host computes it before the call. -/
abbrev recip (d : S8192.Idx → Elt Ideal .f32) : S8192.Idx → Elt Ideal .f32 :=
  Host.divf (F := Ideal) (broadcastInDim S8192 ![] bcast_S_S8192 (constant (F := Ideal) S_ .f32 0x3F800000#32)) d

/-- The scalar `(Σ d) / 5`, as the host computes it before the call (a rank-0 array). -/
abbrev scale (d : S8192.Idx → Elt Ideal .f32) : S_.Idx → Elt Ideal .f32 :=
  Host.divf (F := Ideal) (Host.reduceAdd (F := Ideal) d (constant (F := Ideal) S_ .f32 0x00000000#32) reducesTo_S8192_S_d0 h_S_)
    (constant (F := Ideal) S_ .f32 0x40A00000#32)

/-- The degrees, as launched. -/
abbrev deg (c : Dev nD) : S8192.Idx → Elt Ideal .f32 := m ((c : Thread nD τ).loc main_arg1)

/-- The call's second operand, the column of row factors: the vector `r · s` (the scalar broadcast along it) laid out
    as an 8192 × 1 array. -/
theorem rowOperand_eq (c : Dev nD) :
    (V m c main_v6 : S8192x1.Idx → Elt Ideal .f32)
      = shapeCast S8192x1 (mulf (F := Ideal) (φ := .f32) (recip (deg m c)) (broadcastInDim S8192 ![] bcast_S_S8192 (scale (deg m c)))) shapeCasts_S8192_S8192x1 := by
  dsimp only [V, hostOps0]
  after_results
  rfl

/-- The call's third operand, the row of column factors: the vector `r` laid out as a 1 × 8192 array. -/
theorem colOperand_eq (c : Dev nD) :
    (V m c main_v7 : S1x8192.Idx → Elt Ideal .f32) = shapeCast S1x8192 (recip (deg m c)) shapeCasts_S8192_S1x8192 := by
  dsimp only [V, hostOps0]
  after_results
  rfl

/-- The column of row factors at `(k, 0)` is `r[k] · s`. -/
theorem rowOperand_apply (c : Dev nD) (j : S8192x1.Idx) (k : S8192.Idx) (hk : (k 0).val = (j 0).val) :
    (V m c main_v6 : S8192x1.Idx → Elt Ideal .f32) j = recip (deg m c) k * scale (deg m c) (fun a => a.elim0) := by
  have hj1 : (j 1).val < 1 := (j 1).isLt
  rw [rowOperand_eq]
  refine (shapeCast_apply _ shapeCasts_S8192_S8192x1 j k ?_).trans ?_
  · rw [Shape.rowMajor_val_one, Shape.rowMajor_val_two]
    show (k 0).val = (j 0).val * 1 + (j 1).val
    omega
  · have e : broadcastInDim S8192 ![] bcast_S_S8192 (scale (deg m c)) k = scale (deg m c) (fun a => a.elim0) :=
      broadcastInDim_apply _ bcast_S_S8192 (scale (deg m c)) k (fun a => a.elim0) (fun a => a.elim0)
    show recip (deg m c) k * broadcastInDim S8192 ![] bcast_S_S8192 (scale (deg m c)) k = _
    rw [e]

/-- The row of column factors at `(0, k)` is `r[k]`. -/
theorem colOperand_apply (c : Dev nD) (j : S1x8192.Idx) (k : S8192.Idx) (hk : (k 0).val = (j 1).val) :
    (V m c main_v7 : S1x8192.Idx → Elt Ideal .f32) j = recip (deg m c) k := by
  have hj0 : (j 0).val < 1 := (j 0).isLt
  rw [colOperand_eq]
  refine shapeCast_apply _ shapeCasts_S8192_S1x8192 j k ?_
  rw [Shape.rowMajor_val_one, Shape.rowMajor_val_two]
  show (k 0).val = (j 0).val * 8192 + (j 1).val
  omega

/-! ## What the body leaves in an output block -/

theorem zero_offsets : (![0, 0] : Fin 2 → Nat) = fun _ => 0 := funext fun a => by fin_cases a <;> rfl

/-- The block the body stores, entry by entry, from the three blocks it loads: the entry of the first, times the
    second's entry in the same row (a 256 × 1 column), times the third's entry in the same column (a 1 × 8192 row),
    clamped below at the literal, then the logarithm. -/
theorem block_apply (x0 : Vec Ideal S256x8192 .f32) (x1 : Vec Ideal S256x1 .f32) (x2 : Vec Ideal S1x8192 .f32) (y : S256x8192.Idx) :
    out0_3 x0 x1 x2 y = Ideal.log (max (x0 y * x1 (ix3_1 y) * x2 (ix3_2 y)) (Ideal.ofBits .f32 0x3A83126F#32)) := by
  have e0 : ix3_0 y = y := funext fun a => match a with | ⟨0, _⟩ => rfl | ⟨1, _⟩ => rfl
  unfold out0_3
  rw [canon3_eq]
  simp only [View.ld_unit_zero (S := S256x8192) zero_offsets, View.ld_unit_zero (S := S256x1) zero_offsets,
    View.ld_unit_zero (S := S1x8192) zero_offsets]
  show Ideal.log (max (x0 (ix3_0 y) * x1 (ix3_1 y) * x2 (ix3_2 y)) (Ideal.ofBits .f32 0x3A83126F#32)) = _
  rw [e0]

/-! ## Where each window's block sits at a grid point -/

/-- The printed index maps, decided over the 32 grid points: at point `t` the array's, the row factors' and the
    output's blocks are the `t`-th along the rows; the column factors' block is the one whole row, at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each grid point writes its block of the specification -/

/-- The result on core `c`: the specification at the argument array as launched, the host's reciprocal vector and
    scalar, and the clamp literal. -/
abbrev result (c : Dev nD) : S8192x8192.Idx → Elt Ideal .f32 :=
  G (m ((c : Thread nD τ).loc main_arg0)) (recip (deg m c)) (scale (deg m c) (fun a => a.elim0)) (Ideal.ofBits .f32 0x3A83126F#32)

/-- WHAT POINT `t` WRITES BACK is block `t` of the result: rows `256 t … 256 t + 255`, all columns. Entry `(p, q)` of
    the block is entry `(256 t + p, q)` of the array; the body multiplies it by entry `p` of the point's block of row
    factors — `r · s` at row `256 t + p` — and by entry `q` of the one block of column factors — `r` at column `q` —,
    which is the specification's entry in the other grouping of the three factors. -/
theorem flushed_eq (c : Dev nD) (t : Fin cfg0.N) :
    (dats m 0 c).flushed 3 t = ((cfg0.win 3).blk t).view.read (Elt Ideal) (result m c) := by
  obtain ⟨e00, e01, e10, e11, e20, e21, e30, e31⟩ := idx_facts t
  show (cfg0.win 3).cut (grid0.coords t) ((dats m 0 c).after 3 t) = _
  rw [after0_3]
  funext y
  show out0_3 (iblk m c 0 t) (iblk m c 1 t) (iblk m c 2 t) y = result m c (((cfg0.win 3).blk t).view.emb y)
  refine (block_apply (iblk m c 0 t) (iblk m c 1 t) (iblk m c 2 t) y).trans ?_
  have h0 : iblk m c 0 t y = m ((c : Thread nD τ).loc main_arg0) (((cfg0.win 3).blk t).view.emb y) := by
    show V m c main_arg0 (((cfg0.win 0).blk t).view.emb y) = _
    rw [V_main_arg0]
    have e : ((cfg0.win 0).blk t).view.emb y = ((cfg0.win 3).blk t).view.emb y := by
      funext a; apply Fin.ext
      match a with
      | ⟨0, _⟩ => show win0_0.index t (0 : Fin 2) * 256 + 1 * (y 0).val = win0_3.index t (0 : Fin 2) * 256 + 1 * (y 0).val; rw [e00, e30]
      | ⟨1, _⟩ => show win0_0.index t (1 : Fin 2) * 8192 + 1 * (y 1).val = win0_3.index t (1 : Fin 2) * 8192 + 1 * (y 1).val; rw [e01, e31]
    rw [e]
  have h1 : iblk m c 1 t (ix3_1 y)
      = recip (deg m c) (rowIx (((cfg0.win 3).blk t).view.emb y)) * scale (deg m c) (fun a => a.elim0) := by
    show V m c main_v6 (((cfg0.win 1).blk t).view.emb (ix3_1 y)) = _
    refine rowOperand_apply m c _ _ ?_
    show win0_3.index t (0 : Fin 2) * 256 + 1 * (y 0).val = win0_1.index t (0 : Fin 2) * 256 + 1 * (y 0).val
    rw [e30, e10]
  have h2 : iblk m c 2 t (ix3_2 y) = recip (deg m c) (colIx (((cfg0.win 3).blk t).view.emb y)) := by
    show V m c main_v7 (((cfg0.win 2).blk t).view.emb (ix3_2 y)) = _
    refine colOperand_apply m c _ _ ?_
    show win0_3.index t (1 : Fin 2) * 8192 + 1 * (y 1).val = win0_2.index t (1 : Fin 2) * 8192 + 1 * (y 1).val
    rw [e31, e21]
  rw [h0, h1, h2]
  exact G_of_rowFactor _ _ _ _ _

/-! ## The blocks tile the array -/

/-- An index of the array is in point `t`'s block iff each coordinate is in the block's range on its axis. -/
theorem mem_blk (t : Fin cfg0.N) (i : S8192x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v8).slice (win0_3.rect t)).set ↔ _
  rw [View.set_slice_whole, Rect.mem_set_unit]
  exact Iff.rfl

/-- Row `p` of the array lies in the block of point `p / 256`, which writes back. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 8192 ≤ (i 1).val ∧ (i 1).val < win0_3.index t (1 : Fin 2) * 8192 + 8192
    rw [e31]; omega

/-- THE ARRAY after the run is the result. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program terminates with the output array at the result and the
    two arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelScale

end
-- ==== Proof.lean ====
/-
  The certificate of a row-and-column scaling kernel against its plain reference, over the extended reals.

  Both programs take a square array `X` (8192 × 8192) and a vector of degrees `d` and return, entry by entry,
  `log (max (X[i,j] · s · r[i] · r[j]) ε)` with `r = 1 / d` the reciprocal degrees, `s = (Σ d) / 5` one scalar and `ε`
  a clamp literal. The reference multiplies the whole array by `s`, then by the row's reciprocal, then by the
  column's. The kernel's program multiplies `s` into the reciprocal vector on the host (8192 products instead of
  8192²), hands the call that column of row factors `r · s` and the row of column factors `r`, and the call sweeps the
  array in 32 strips of 256 rows, each entry times its row factor times its column factor, clamped, logarithm taken.

  The two results differ only in the grouping of the three factors around an entry, and the product of extended reals
  is commutative and associative everywhere, infinities and zero included (Proof/ScaleLaw.lean): the precondition
  that the inputs are finite is never opened. The reciprocal vector, the scalar and the sum inside it are the same
  host operations in both programs and are carried whole, never evaluated. Kernel and host logarithm are one function
  on the extended reals, and so are the two maxima; the clamp is the same binary word on both sides.

  Proof/KernelScale.lean reads the kernel's run: the two operands the host prepares, the block each grid point writes
  back (block `t` of the result), and that the 32 blocks tile the array. Proof/RefScale.lean reads the reference's
  last stage entry by entry. The three frames are the generated frame runs (the reference's with its result dropped);
  the idealization rewrote nothing, so there is nothing to preserve.
-/
import proofs.«128968_j56556129354266_2_alg».proof.Defs
import proofs.«128968_j56556129354266_2_alg».proof.Proof.Gen.Kernel
import proofs.«128968_j56556129354266_2_alg».proof.Proof.Gen.Kernel.Skeleton
import proofs.«128968_j56556129354266_2_alg».proof.Proof.Gen.Kernel.Launch
import proofs.«128968_j56556129354266_2_alg».proof.Proof.Gen.Kernel.Points
import proofs.«128968_j56556129354266_2_alg».proof.Proof.Gen.Kernel.Frame
import proofs.«128968_j56556129354266_2_alg».proof.Proof.Gen.KernelIdeal
import proofs.«128968_j56556129354266_2_alg».proof.Proof.Gen.KernelIdeal.Skeleton
import proofs.«128968_j56556129354266_2_alg».proof.Proof.Gen.KernelIdeal.Launch
import proofs.«128968_j56556129354266_2_alg».proof.Proof.Gen.KernelIdeal.Points
import proofs.«128968_j56556129354266_2_alg».proof.Proof.Gen.KernelIdeal.Frame
import proofs.«128968_j56556129354266_2_alg».proof.Proof.Gen.ReferenceIdeal
import proofs.«128968_j56556129354266_2_alg».proof.Proof.Gen.Pre_finite_inputs
import proofs.«128968_j56556129354266_2_alg».proof.Proof.Gen.KernelIdeal.Value
import proofs.«128968_j56556129354266_2_alg».proof.Proof.Gen.ReferenceIdeal.Run
import proofs.«128968_j56556129354266_2_alg».proof.Proof.Gen.ReferenceIdeal.Read
import proofs.«128968_j56556129354266_2_alg».proof.Proof.ScaleLaw
import proofs.«128968_j56556129354266_2_alg».proof.Proof.RefScale
import proofs.«128968_j56556129354266_2_alg».proof.Proof.KernelScale
import Idealize.ShloMosaic.Adequacy
import Idealize.ShloMosaic.Init

noncomputable section

namespace Cert.Proof

open Idealize.ShloMosaic Idealize.ShloMosaic.TcCoe Idealize.SL.Sem

/-! ## The shared host values -/

/-- The reciprocal vector is the same host quotient in both programs. -/
theorem recip_eq (d : Cert.ScaleSpec.SVec.Idx → Elt Ideal .f32) : Cert.RefScale.recip d = Cert.KernelScale.recip d := rfl

/-- The scalar is the same host sum and quotient in both programs. -/
theorem scale_eq (d : Cert.ScaleSpec.SVec.Idx → Elt Ideal .f32) :
    Cert.RefScale.scale d = Cert.KernelScale.scale d (fun a => a.elim0) := rfl

/-! ## The claims -/

/-- The word-level kernel's program runs and leaves its arguments as they were: the generated frame. -/
theorem frame_kernel : Cert.frame_Kernel := fun m ρ _ => Cert.Kernel.Gen.frame m ρ

/-- So does the idealized kernel's. -/
theorem frame_kernelIdeal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `X` and `d`, both programs end with the specification of Proof/ScaleLaw.lean at those
    arguments: the kernel's by its run read block by block, the reference's by its last stage read entry by entry. -/
theorem algebraic : Cert.algebraic_KernelIdeal_ReferenceIdeal := by
  intro m ρ m' ρ' _ hagree
  refine ⟨fun c => Cert.KernelScale.result m c, Cert.KernelScale.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefScale.result_eq, (hagree c).1, (hagree c).2, recip_eq, scale_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
